-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1x2048x2048 : Shape := ⟨4, ![64, 1, 2048, 2048]⟩
abbrev S64x2048 : Shape := ⟨2, ![64, 2048]⟩
abbrev S2048 : Shape := ⟨1, ![2048]⟩
abbrev S_ : Shape := ⟨0, ![]⟩

class Facts : Prop where
  bcast_S_S64x1x2048x2048 : S_.BroadcastsInDim S64x1x2048x2048 (![] : Fin 0 → Fin S64x1x2048x2048.rank)
  reducesTo_S64x1x2048x2048_S_d0_1_2_3 : S64x1x2048x2048.ReducesTo [0, 1, 2, 3] S_
  h_S_ : 0 < S_.numel
  bcast_S_S64x2048 : S_.BroadcastsInDim S64x2048 (![] : Fin 0 → Fin S64x2048.rank)
  reducesTo_S64x2048_S_d0_1 : S64x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S64x1x2048x2048 .f32) (main_arg1 : FVec F S64x2048 .f32) (main_arg2 : FVec F S2048 .f32) : IVec S_ 1 :=
  let main_v0 : FVec F S64x1x2048x2048 .f32 := Host.absf main_arg0
  let main_cst : FVec F S_ .f32 := constant S_ .f32 0x7F800000#32
  let main_v1 : FVec F S64x1x2048x2048 .f32 := broadcastInDim S64x1x2048x2048 ![] bcast_S_S64x1x2048x2048 main_cst
  let main_v2 : IVec S64x1x2048x2048 1 := cmpf .olt main_v0 main_v1
  let main_c : IVec S_ 1 := constantI S_ 1 1#1
  let main_v3 : IVec S_ 1 := (fun x v => Host.reduce IntOp.andi x v reducesTo_S64x1x2048x2048_S_d0_1_2_3 h_S_) main_v2 main_c
  let main_v4 : FVec F S64x2048 .f32 := Host.absf main_arg1
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S64x1x2048x2048 : Shape := ⟨4, ![64, 1, 2048, 2048]⟩
abbrev S64x2048 : Shape := ⟨2, ![64, 2048]⟩
abbrev S2048 : Shape := ⟨1, ![2048]⟩
abbrev S2048x1 : Shape := ⟨2, ![2048, 1]⟩
abbrev S64x1x1 : Shape := ⟨3, ![64, 1, 1]⟩
abbrev S1x1x512x2048 : Shape := ⟨4, ![1, 1, 512, 2048]⟩
abbrev S1x1x1 : Shape := ⟨3, ![1, 1, 1]⟩
abbrev S1x1 : Shape := ⟨2, ![1, 1]⟩
abbrev S512x2048 : Shape := ⟨2, ![512, 2048]⟩
abbrev S1x2048 : Shape := ⟨2, ![1, 2048]⟩
abbrev S512 : Shape := ⟨1, ![512]⟩
abbrev S512x1 : Shape := ⟨2, ![512, 1]⟩
abbrev S1 : Shape := ⟨1, ![1]⟩
abbrev S_ : Shape := ⟨0, ![]⟩

abbrev nBuf : Space → Nat
  | .hbm => 9
  | .vmem => 7
  | .smem => 0
  | _ => 0

abbrev bufTy : (tb : Table) → Fin (tcTables nBuf tb) → BufTy
  | .hbm, ⟨0, _⟩ => ⟨S64x1x2048x2048, .f32⟩
  | .hbm, ⟨1, _⟩ => ⟨S64x2048, .f32⟩
  | .hbm, ⟨2, _⟩ => ⟨S2048, .f32⟩
  | .hbm, ⟨3, _⟩ => ⟨S2048x1, .f32⟩
  | .hbm, ⟨4, _⟩ => ⟨S64x1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1x1x512x2048, .f32⟩
  | .local _ .vmem, ⟨1, _⟩ => ⟨S1x1x512x2048, .f32⟩
  | .local _ .vmem, ⟨2, _⟩ => ⟨S64x2048, .f32⟩
  | .local _ .vmem, ⟨3, _⟩ => ⟨S2048x1, .f32⟩
  | .local _ .vmem, ⟨4, _⟩ => ⟨S1x1x1, .f32⟩
  | .local _ .vmem, ⟨5, _⟩ => ⟨S1x1x1, .f32⟩
  | .local _ .vmem, ⟨6, _⟩ => ⟨S1x1, .f32⟩
  | _, _ => ⟨S64x1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![64, 4], ![false, false]⟩

def k0_off1 (i : grid0.Coords) : Fin 2 → Nat :=
  let arg0 : BitVec 32 := BitVec.ofNat 32 (i 0).val
  let v10 : Index := Scalar.indexCast arg0
  let c0_5 : Index := 0#32
  ![v10.toNat, 0]
def k0_mult1 (i : grid0.Coords) : BitVec 32 :=
  let arg1 : BitVec 32 := BitVec.ofNat 32 (i 1).val
  let c512_i32 : BitVec 32 := 512#32
  let v29 : BitVec 32 := Scalar.muli arg1 c512_i32
  v29
def k0_off2 (i : grid0.Coords) : Fin 2 → Nat :=
  let arg1 : BitVec 32 := BitVec.ofNat 32 (i 1).val
  let c512_i32 : BitVec 32 := 512#32
  let v29 : BitVec 32 := Scalar.muli arg1 c512_i32
  let v30 : BitVec 32 := v29
  let v31 : Index := Scalar.indexCast v30
  let c0_12 : Index := 0#32
  ![v31.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S2048_S2048x1 : S2048.ShapeCasts S2048x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  h_S1x2048 : 0 < S1x2048.numel
  shapeCasts_S1x2048_S2048 : S1x2048.ShapeCasts S2048
  shapeCasts_S2048_S1x2048 : S2048.ShapeCasts S1x2048
  shapeCasts_S1x2048_S1x2048 : S1x2048.ShapeCasts S1x2048
  broadcasts_S1x2048_S512x2048 : S1x2048.Broadcasts S512x2048
  reduces_S512x2048_S512 : S512x2048.Reduces [1] S512
  shapeCasts_S512_S512x1 : S512.ShapeCasts S512x1
  h_S512x1 : 0 < S512x1.numel
  shapeCasts_S512x1_S512x1 : S512x1.ShapeCasts S512x1
  reduces_S512x1_S1 : S512x1.Reduces [0] S1
  shapeCasts_S1_S1x1 : S1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S64x1x1_S_d0_1_2 : S64x1x1.ReducesTo [0, 1, 2] S_
  h_S_ : 0 < S_.numel
  hrank0 : 0 < grid0.rank
  k0_off1_inb : ∀ i : grid0.Coords, ∀ a, (k0_off1 i) a + S1x2048.size a ≤ S64x2048.size a
  k0_mult1_dvd : ∀ i : grid0.Coords, 512 ∣ (k0_mult1 i).toNat
  k0_off2_inb : ∀ i : grid0.Coords, ∀ a, (k0_off2 i) a + S512x1.size a ≤ S2048x1.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x2048.size a ≤ S64x1x2048x2048.size a
  hwx0_0 : ∀ i : grid0.Coords, EltTy.bits .f32 = 32 ∨ (Rect.block (s := S64x1x2048x2048) S1x1x512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x2048.size a ≤ S64x2048.size a
  hwx0_1 : ∀ i : grid0.Coords, EltTy.bits .f32 = 32 ∨ (Rect.block (s := S64x2048) S64x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S2048x1.size a
  hwx0_2 : ∀ i : grid0.Coords, EltTy.bits .f32 = 32 ∨ (Rect.block (s := S2048x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S64x1x1.size a
  hwx0_3 : ∀ i : grid0.Coords, EltTy.bits .f32 = 32 ∨ (Rect.block (s := S64x1x1) S1x1x1.size (cc0_transform_3 i) (hinb0_3 i)).WholeWords (EltTy.packing .f32)

variable [Facts₀]

abbrev win0_0 : Pipeline.Window sig grid0 :=
  Pipeline.Window.ofSpec (Memref.whole main_arg0) S1x1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x1x2048x2048 : Shape := ⟨4, ![64, 1, 2048, 2048]⟩
abbrev S64x2048 : Shape := ⟨2, ![64, 2048]⟩
abbrev S2048 : Shape := ⟨1, ![2048]⟩
abbrev S64x2048x2048 : Shape := ⟨3, ![64, 2048, 2048]⟩
abbrev S_ : Shape := ⟨0, ![]⟩
abbrev S64x1x2048 : Shape := ⟨3, ![64, 1, 2048]⟩
abbrev S1x2048 : Shape := ⟨2, ![1, 2048]⟩
abbrev S64 : Shape := ⟨1, ![64]⟩

abbrev nBuf : Space → Nat
  | .hbm => 42
  | .vmem => 0
  | .smem => 0
  | _ => 0

abbrev bufTy : (tb : Table) → Fin (tcTables nBuf tb) → BufTy
  | .hbm, ⟨0, _⟩ => ⟨S64x1x2048x2048, .f32⟩
  | .hbm, ⟨1, _⟩ => ⟨S64x2048, .f32⟩
  | .hbm, ⟨2, _⟩ => ⟨S2048, .f32⟩
  | .hbm, ⟨3, _⟩ => ⟨S64x2048x2048, .f32⟩
  | .hbm, ⟨4, _⟩ => ⟨S_, .f32⟩
  | .hbm, ⟨5, _⟩ => ⟨S64x2048x2048, .f32⟩
  | .hbm, ⟨6, _⟩ => ⟨S64x2048x2048, .i1⟩
  | .hbm, ⟨7, _⟩ => ⟨S_, .f32⟩
  | .hbm, ⟨8, _⟩ => ⟨S_, .f32⟩
  | .hbm, ⟨9, _⟩ => ⟨S64x2048x2048, .f32⟩
  | .hbm, ⟨10, _⟩ => ⟨S64x2048x2048, .f32⟩
  | .hbm, ⟨11, _⟩ => ⟨S64x2048x2048, .f32⟩
  | .hbm, ⟨12, _⟩ => ⟨S64x1x2048, .f32⟩
  | .hbm, ⟨13, _⟩ => ⟨S64x2048x2048, .f32⟩
  | .hbm, ⟨14, _⟩ => ⟨S64x2048x2048, .f32⟩
  | .hbm, ⟨15, _⟩ => ⟨S_, .f32⟩
  | .hbm, ⟨16, _⟩ => ⟨S_, .f32⟩
  | .hbm, ⟨17, _⟩ => ⟨S64x2048x2048, .f32⟩
  | .hbm, ⟨18, _⟩ => ⟨S64x2048x2048, .f32⟩
  | .hbm, ⟨19, _⟩ => ⟨S_, .f32⟩
  | .hbm, ⟨20, _⟩ => ⟨S64x2048, .f32⟩
  | .hbm, ⟨21, _⟩ => ⟨S64x2048, .f32⟩
  | .hbm, ⟨22, _⟩ => ⟨S64x2048x2048, .f32⟩
  | .hbm, ⟨23, _⟩ => ⟨S_, .f32⟩
  | .hbm, ⟨24, _⟩ => ⟨S_, .f32⟩
  | .hbm, ⟨25, _⟩ => ⟨S64x2048x2048, .f32⟩
  | .hbm, ⟨26, _⟩ => ⟨S64x2048x2048, .f32⟩
  | .hbm, ⟨27, _⟩ => ⟨S_, .f32⟩
  | .hbm, ⟨28, _⟩ => ⟨S64x2048, .f32⟩
  | .hbm, ⟨29, _⟩ => ⟨S_, .f32⟩
  | .hbm, ⟨30, _⟩ => ⟨S64x2048, .f32⟩
  | .hbm, ⟨31, _⟩ => ⟨S64x2048, .f32⟩
  | .hbm, ⟨32, _⟩ => ⟨S64x2048, .f32⟩
  | .hbm, ⟨33, _⟩ => ⟨S1x2048, .f32⟩
  | .hbm, ⟨34, _⟩ => ⟨S64x2048, .f32⟩
  | .hbm, ⟨35, _⟩ => ⟨S64x2048, .f32⟩
  | .hbm, ⟨36, _⟩ => ⟨S_, .f32⟩
  | .hbm, ⟨37, _⟩ => ⟨S64, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | _, _ => ⟨S64x1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_call1_v0 : Ref sig .tc := ⟨.hbm, 16, rfl⟩
abbrev main_call1_v1 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_call2_v0 : Ref sig .tc := ⟨.hbm, 24, rfl⟩
abbrev main_call2_v1 : Ref sig .tc := ⟨.hbm, 25, rfl⟩
abbrev main_v12 : Ref sig .tc := ⟨.hbm, 26, rfl⟩
abbrev main_cst_4 : Ref sig .tc := ⟨.hbm, 27, rfl⟩
abbrev main_v13 : Ref sig .tc := ⟨.hbm, 28, rfl⟩
abbrev main_cst_5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_6 : Ref sig .tc := ⟨.hbm, 36, rfl⟩
abbrev main_v20 : Ref sig .tc := ⟨.hbm, 37, rfl⟩
abbrev main_cst_7 : Ref sig .tc := ⟨.hbm, 38, rfl⟩
abbrev main_v21 : Ref sig .tc := ⟨.hbm, 39, rfl⟩
abbrev main_cst_8 : Ref sig .tc := ⟨.hbm, 40, rfl⟩
abbrev main_v22 : Ref sig .tc := ⟨.hbm, 41, rfl⟩

abbrev nD : Nat := 1
abbrev τ : Topo := Topo.v7x

variable {F : FTy → Type} [FloatOps F]

class Facts₀ : Prop where
  shapeCasts_S64x1x2048x2048_S64x2048x2048 : S64x1x2048x2048.ShapeCasts S64x2048x2048
  bcast_S_S64x2048x2048 : S_.BroadcastsInDim S64x2048x2048 (![] : Fin 0 → Fin S64x2048x2048.rank)
  bcast_S64x2048_S64x1x2048_0_2 : S64x2048.BroadcastsInDim S64x1x2048 (![0, 2] : Fin 2 → Fin S64x1x2048.rank)
  bcast_S64x1x2048_S64x2048x2048_0_1_2 : S64x1x2048.BroadcastsInDim S64x2048x2048 (![0, 1, 2] : Fin 3 → Fin S64x2048x2048.rank)
  reducesTo_S64x2048x2048_S64x2048_d2 : S64x2048x2048.ReducesTo [2] S64x2048
  h_S_ : 0 < S_.numel
  bcast_S_S64x2048 : S_.BroadcastsInDim S64x2048 (![] : Fin 0 → Fin S64x2048.rank)
  bcast_S2048_S1x2048_1 : S2048.BroadcastsInDim S1x2048 (![1] : Fin 1 → Fin S1x2048.rank)
  bcast_S1x2048_S64x2048_0_1 : S1x2048.BroadcastsInDim S64x2048 (![0, 1] : Fin 2 → Fin S64x2048.rank)
  reducesTo_S64x2048_S64_d1 : S64x2048.ReducesTo [1] S64
  reducesTo_S64_S_d0 : S64.ReducesTo [0] S_

variable [Facts₀]

class Facts : Prop extends Facts₀ where

variable [Facts]
-- ==== Proof.Found.lean ====
/-
  What one grid step leaves behind, read as values.

  A grid step (b, j) sees three things: the 512 × 2048 tile of the scores that belongs to batch b and positions
  512 j … 512 j + 511, row b of the labels, and the 512 weights of those positions. From them it forms one number per
  position (`k0_pay4`), adds the 512 numbers to the running total it keeps for batch b (`k0_pay1`), and copies the new
  total into the one-element output block (`k0_pay2`). At the first step of a batch (j = 0) the running total is first
  set to zero (`k0_pay3`); at the later steps it is what the step before left.

  The lemmas below say exactly this about the contents the step leaves in the running total and in the output block,
  for either kind of step and for any values of the three inputs.
-/
import proofs.«107683_j64415919505714_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Found

open Cert.KernelIdeal Cert.KernelIdeal.Gen

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- The label row a step reads: row `b` of the label array. -/
abbrev labelRow (i : grid0.Coords) (x1 : Vec F S64x2048 .f32) : Vec F S1x2048 .f32 :=
  View.ld x1 (Rect.unit (s := S64x2048) (k0_off1 i) S1x2048.size (k0_off1_inb i))

/-- The weights a step reads: entries `512 j … 512 j + 511` of the weight column. -/
abbrev weightRun (i : grid0.Coords) (x2 : Vec F S2048x1 .f32) : Vec F S512x1 .f32 :=
  View.ld x2 (Rect.unit (s := S2048x1) (k0_off2 i) S512x1.size (k0_off2_inb i))

/-- A later step of a batch leaves, as running total, the total `xs0` it found plus the sum of its 512 numbers. -/
theorem total_later (c : Dev nD) (i : grid0.Coords) (arg2 : Memref sig .tc .vmem S1x1x512x2048 .f32) (harg2 : arg2.IsWhole) (arg3 : Memref sig .tc .vmem S64x2048 .f32) (harg3 : arg3.IsWhole) (arg4 : Memref sig .tc .vmem S2048x1 .f32) (harg4 : arg4.IsWhole) (arg5 : Memref sig .tc .vmem S1x1x1 .f32) (harg5 : arg5.IsWhole) (arg6 : Memref sig .tc .vmem S1x1 .f32) (harg6 : arg6.IsWhole) (hc0 : ¬cond0_0 i)
    (x0 : Vec F S1x1x512x2048 .f32) (x1 : Vec F S64x2048 .f32) (x2 : Vec F S2048x1 .f32) (xs0 : Vec F S1x1 .f32) :
    sout0_B_0 c i arg2 harg2 arg3 harg3 arg4 harg4 arg5 harg5 arg6 harg6 hc0 x0 x1 x2 xs0 = k0_pay1 (k0_pay4 x0 (labelRow i x1) (weightRun i x2)) xs0 := by
  unfold sout0_B_0
  rw [View.read_writes_eq_canon _ _ _ (scover0_B_0 c i arg2 harg2 arg3 harg3 arg4 harg4 arg5 harg5 arg6 harg6 hc0 x0 x1 x2 xs0)]
  unfold kernelRun0_B
  dsimp only
  sl_unfold_words
  rw [View.canon_unit_zero (S := S1x1) zeros2]
  simp only [View.readAt_eq_ld, harg2.read_unread, harg3.read_unread, harg4.read_unread, harg6.read_unread,
    View.ld_unit_zero (S := S1x1x512x2048) zeros4, View.ld_unit_zero (S := S1x1) zeros2]
  rfl

/-- and copies that new total into the output block. -/
theorem block_later (c : Dev nD) (i : grid0.Coords) (arg2 : Memref sig .tc .vmem S1x1x512x2048 .f32) (harg2 : arg2.IsWhole) (arg3 : Memref sig .tc .vmem S64x2048 .f32) (harg3 : arg3.IsWhole) (arg4 : Memref sig .tc .vmem S2048x1 .f32) (harg4 : arg4.IsWhole) (arg5 : Memref sig .tc .vmem S1x1x1 .f32) (harg5 : arg5.IsWhole) (arg6 : Memref sig .tc .vmem S1x1 .f32) (harg6 : arg6.IsWhole) (hc0 : ¬cond0_0 i)
    (x0 : Vec F S1x1x512x2048 .f32) (x1 : Vec F S64x2048 .f32) (x2 : Vec F S2048x1 .f32) (xs0 : Vec F S1x1 .f32) :
    out0_B_3 c i arg2 harg2 arg3 harg3 arg4 harg4 arg5 harg5 arg6 harg6 hc0 x0 x1 x2 xs0 = k0_pay2 (k0_pay1 (k0_pay4 x0 (labelRow i x1) (weightRun i x2)) xs0) := by
  unfold out0_B_3
  rw [View.read_writes_eq_canon _ _ _ (cover0_B_3 c i arg2 harg2 arg3 harg3 arg4 harg4 arg5 harg5 arg6 harg6 hc0 x0 x1 x2 xs0)]
  unfold kernelRun0_B
  dsimp only
  sl_unfold_words
  rw [View.canon_unit_zero (S := S1x1x1) zeros3, View.readCov_cons_toLoadRect]
  simp only [View.readAt_eq_ld, harg2.read_unread, harg3.read_unread, harg4.read_unread, harg6.read_unread,
    View.ld_unit_zero (S := S1x1x512x2048) zeros4, View.ld_unit_zero (S := S1x1) zeros2]
  rfl

/-- The first step of a batch leaves, as running total, zero plus the sum of its 512 numbers. -/
theorem total_first (c : Dev nD) (i : grid0.Coords) (arg2 : Memref sig .tc .vmem S1x1x512x2048 .f32) (harg2 : arg2.IsWhole) (arg3 : Memref sig .tc .vmem S64x2048 .f32) (harg3 : arg3.IsWhole) (arg4 : Memref sig .tc .vmem S2048x1 .f32) (harg4 : arg4.IsWhole) (arg5 : Memref sig .tc .vmem S1x1x1 .f32) (harg5 : arg5.IsWhole) (arg6 : Memref sig .tc .vmem S1x1 .f32) (harg6 : arg6.IsWhole) (hc0 : cond0_0 i)
    (x0 : Vec F S1x1x512x2048 .f32) (x1 : Vec F S64x2048 .f32) (x2 : Vec F S2048x1 .f32) :
    sout0_A_0 c i arg2 harg2 arg3 harg3 arg4 harg4 arg5 harg5 arg6 harg6 hc0 x0 x1 x2 = k0_pay1 (k0_pay4 x0 (labelRow i x1) (weightRun i x2)) k0_pay3 := by
  unfold sout0_A_0
  rw [View.read_writes_eq_canon _ _ _ (scover0_A_0 c i arg2 harg2 arg3 harg3 arg4 harg4 arg5 harg5 arg6 harg6 hc0 x0 x1 x2)]
  unfold kernelRun0_A
  dsimp only
  sl_unfold_words
  rw [View.canon_cons_unit_zero (S := S1x1) zeros2, View.readCov_unit_zero (S := S1x1) _ zeros2]
  simp only [View.readAt_eq_ld, harg2.read_unread, harg3.read_unread, harg4.read_unread,
    View.ld_unit_zero (S := S1x1x512x2048) zeros4]
  rfl

/-- and copies that new total into the output block. -/
theorem block_first (c : Dev nD) (i : grid0.Coords) (arg2 : Memref sig .tc .vmem S1x1x512x2048 .f32) (harg2 : arg2.IsWhole) (arg3 : Memref sig .tc .vmem S64x2048 .f32) (harg3 : arg3.IsWhole) (arg4 : Memref sig .tc .vmem S2048x1 .f32) (harg4 : arg4.IsWhole) (arg5 : Memref sig .tc .vmem S1x1x1 .f32) (harg5 : arg5.IsWhole) (arg6 : Memref sig .tc .vmem S1x1 .f32) (harg6 : arg6.IsWhole) (hc0 : cond0_0 i)
    (x0 : Vec F S1x1x512x2048 .f32) (x1 : Vec F S64x2048 .f32) (x2 : Vec F S2048x1 .f32) :
    out0_A_3 c i arg2 harg2 arg3 harg3 arg4 harg4 arg5 harg5 arg6 harg6 hc0 x0 x1 x2 = k0_pay2 (k0_pay1 (k0_pay4 x0 (labelRow i x1) (weightRun i x2)) k0_pay3) := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_unit_zero (S := S1x1x1) zeros3, View.readCov_cons_toLoadRect, View.readCov_unit_zero (S := S1x1) _ zeros2]
  simp only [View.readAt_eq_ld, harg2.read_unread, harg3.read_unread, harg4.read_unread,
    View.ld_unit_zero (S := S1x1x512x2048) zeros4]
  rfl

end Cert.KernelIdeal.Found
end
-- ==== Proof.LibRuns.lean ====
/-
  Sums over consecutive runs.

  A sum over the first `m · n` naturals is the sum, over the `m` consecutive runs of length `n`, of each run's sum:
  entry `r` lies in run `r / n` at place `r % n`, that is `r = n · a + b` for exactly one run `a < m` and place `b < n`.
  Addition here is that of any commutative monoid; on the extended reals no finiteness is needed, only that addition is
  commutative and associative.
-/
import Idealize.ShloMosaic.Lib.ValueIdx

open scoped BigOperators

namespace Cert.Lib

/-- Cutting a sum over `Fin (m * n)` into `m` runs of `n`. -/
theorem sum_fin_mul {M : Type*} [AddCommMonoid M] (m n : ℕ) (g : ℕ → M) :
    ∑ r : Fin (m * n), g r.val = ∑ a ∈ Finset.range m, ∑ b : Fin n, g (n * a + b.val) := by
  rw [← Fin.sum_univ_eq_sum_range (fun a => ∑ b : Fin n, g (n * a + b.val)) m,
    ← Equiv.sum_comp finProdFinEquiv, Fintype.sum_prod_type]
  refine Finset.sum_congr rfl fun a _ => Finset.sum_congr rfl fun b _ => ?_
  congr 1
  show b.val + n * a.val = n * a.val + b.val
  omega

/-- The same with the total spelt as one number `N = m * n`, the summand given on `Fin N` and extended by zero. -/
theorem sum_fin_eq_runs {M : Type*} [AddCommMonoid M] (N m n : ℕ) (hN : N = m * n) (f : Fin N → M) :
    ∑ r : Fin N, f r = ∑ a ∈ Finset.range m, ∑ b : Fin n, (if h : n * a + b.val < N then f ⟨n * a + b.val, h⟩ else 0) := by
  subst hN
  rw [← sum_fin_mul m n (fun r => if h : r < m * n then f ⟨r, h⟩ else 0)]
  refine Finset.sum_congr rfl fun r _ => ?_
  rw [dif_pos r.isLt]

end Cert.Lib
-- ==== Proof.Spec.lean ====
/-
  The loss as one formula, and the same loss summed run by run.

  For a batch `b` and a position `j` the scores `x b j i` (over the items `i`) are compared with zero: a score equal to
  zero is masked. The unmasked scores contribute `log (x b j i) · y b i` to a numerator and `y b i` to a denominator; the
  position's value is `-(numerator) / (denominator + 1/e) · w j` (the constant is the nearest float to 1/e, kept as its word). The loss
  is the sum of the positions' values over `j`, averaged over the 64 batches.

  The positions `0 … 2047` fall into four runs of 512. Adding each run's sum in turn to zero gives the same total as
  adding all 2048 values at once: only that addition of extended reals is associative and commutative and that zero is its
  neutral element is used, so nothing is asked of the inputs.
-/
import Idealize.ShloMosaic.PureOps.Ideal.Laws
import Idealize.ShloMosaic.Lib.ValueIdx
import proofs.«107683_j64415919505714_1_alg».proof.Proof.LibRuns

noncomputable section

open scoped BigOperators

namespace Cert.Spec

open Idealize.ShloMosaic

/-- The bit that says a score is masked: the comparison of the score with the zero word. -/
def masked (s : EReal) : BitVec 1 := Ideal.cmp .oeq s (Ideal.ofBits .f32 0x00000000#32)

/-- One item's share of a position's numerator: nothing if the score is masked, else `log s · y` (the logarithm is taken
    of 1 in place of a masked score, and then discarded). -/
def lossTerm (s y : EReal) : EReal :=
  Scalar.select (masked s) (Ideal.ofBits .f32 0x00000000#32)
    (Ideal.log (Scalar.select (masked s) (Ideal.ofBits .f32 0x3F800000#32) s) * y)

/-- One item's share of a position's denominator: nothing if the score is masked, else the label. -/
def massTerm (s y : EReal) : EReal := Scalar.select (masked s) (Ideal.ofBits .f32 0x00000000#32) y

/-- A position's value from its row of scores `x`, the batch's labels `y` and the position's weight `w`. -/
def position (x y : Fin 2048 → EReal) (w : EReal) : EReal :=
  Ideal.div (-(∑ i, lossTerm (x i) (y i))) ((∑ i, massTerm (x i) (y i)) + Ideal.ofBits .f32 0x3EBC5AB2#32) * w

/-- The loss: the positions' values summed within each batch, the batches' sums added and divided by 64. -/
def loss (x : Fin 64 → Fin 2048 → Fin 2048 → EReal) (y : Fin 64 → Fin 2048 → EReal) (w : Fin 2048 → EReal) : EReal :=
  Ideal.div (∑ b, ∑ j, position (x b j) (y b) (w j)) (Ideal.ofBits .f32 0x42800000#32)

/-- A natural number read as an index below `n` (its remainder; only numbers already below `n` are ever read). -/
def wrap {n : ℕ} (hn : 0 < n) (k : ℕ) : Fin n := ⟨k % n, Nat.mod_lt _ hn⟩

theorem wrap_val {n : ℕ} (hn : 0 < n) (k : Fin n) : wrap hn k.val = k := Fin.ext (Nat.mod_eq_of_lt k.isLt)

theorem wrap_of_lt {n : ℕ} (hn : 0 < n) (k : ℕ) (hk : k < n) : wrap hn k = ⟨k, hk⟩ := Fin.ext (Nat.mod_eq_of_lt hk)

/-- The sum of the 512 positions' values of step `n` of the 256 steps: batch `n / 4`, run `n % 4`. -/
def runSum (x : Fin 64 → Fin 2048 → Fin 2048 → EReal) (y : Fin 64 → Fin 2048 → EReal) (w : Fin 2048 → EReal) (n : ℕ) : EReal :=
  ∑ r : Fin 512, position (x (wrap (by decide) (n / 4)) (wrap (by decide) (512 * (n % 4) + r.val))) (y (wrap (by decide) (n / 4)))
    (w (wrap (by decide) (512 * (n % 4) + r.val)))

/-- A batch's sum over all positions is the sum of its four runs' sums. -/
theorem batch_eq_runs (x : Fin 64 → Fin 2048 → Fin 2048 → EReal) (y : Fin 64 → Fin 2048 → EReal) (w : Fin 2048 → EReal) (b : Fin 64) :
    ∑ j, position (x b j) (y b) (w j) = ∑ s ∈ Finset.range 4, runSum x y w (4 * b.val + s) := by
  have h := Cert.Lib.sum_fin_mul (M := EReal) 4 512
    (fun k => position (x b (wrap (by decide) k)) (y b) (w (wrap (by decide) k)))
  have e : ∑ j : Fin 2048, position (x b j) (y b) (w j)
      = ∑ r : Fin (4 * 512), position (x b (wrap (by decide) r.val)) (y b) (w (wrap (by decide) r.val)) :=
    Finset.sum_congr rfl fun j _ => by rw [wrap_val (n := 2048) (by decide) j]
  rw [e, h]
  refine Finset.sum_congr rfl fun s hs => ?_
  have hs4 : s < 4 := Finset.mem_range.mp hs
  have hb : b.val < 64 := b.isLt
  unfold runSum
  have h1 : (4 * b.val + s) / 4 = b.val := by omega
  have h2 : (4 * b.val + s) % 4 = s := by omega
  rw [h1, h2, wrap_val (n := 64) (by decide) b]

/-- The loss with each batch's sum taken run by run from zero. -/
theorem loss_by_runs (x : Fin 64 → Fin 2048 → Fin 2048 → EReal) (y : Fin 64 → Fin 2048 → EReal) (w : Fin 2048 → EReal) :
    loss x y w = Ideal.div (Ideal.ofBits .f32 0x00000000#32
        + ∑ b : Fin 64, (Ideal.ofBits .f32 0x00000000#32 + ∑ s ∈ Finset.range 4, runSum x y w (4 * b.val + s)))
      (Ideal.ofBits .f32 0x42800000#32) := by
  unfold loss
  rw [Ideal.ofBits_zero_f32, zero_add]
  refine congrArg (Ideal.div · _) (Finset.sum_congr rfl fun b _ => ?_)
  rw [zero_add, batch_eq_runs]

end Cert.Spec

end
-- ==== Proof.LibLanes.lean ====
/-
  Reading a lane reduction with kept dimension at an index, at the ideal instance: the sum (or the maximum) over the lanes of a
  row, cast from a vector of rows to a column, and a column broadcast back over the lanes. General in the two extents.
-/
import Idealize.ShloMosaic.Lib.ValueIdx
import Idealize.ShloMosaic.Lib.Pipeline.Value
import Idealize.ShloMosaic.Lib.ValueLayout
import Idealize.ShloMosaic.PureOps.Ideal.Laws

noncomputable section

namespace Cert.Lib

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) :=
  broadcastTo_apply v h (ix2 p c) (ix2 p (0 : Fin 1)) (fun d => by
    match d with
    | ⟨0, _⟩ =>
      show p.val = if a = 1 then 0 else p.val
      split
      · have := p.isLt; omega
      · rfl
    | ⟨1, _⟩ => rfl)

/-- The sum over the lanes of row `p`. -/
theorem lane_sum {a b : ℕ} (v : FVec Ideal (⟨2, ![a, b]⟩ : Shape) .f32) (h : (⟨2, ![a, b]⟩ : Shape).Reduces [1] ⟨1, ![a]⟩)
    (hφ : FKind.Formats .f32) (hacc : (0x00000000#32 : BitVec 32) = 0x00000000#32) (p : Fin a) :
    multiReduction .add [1] (⟨1, ![a]⟩ : Shape) v 0x00000000#32 h hφ hacc (ix1 p) = ∑ k : Fin b, v (ix2 p k) := by
  refine (Ideal.multiReduction_add_single v 0x00000000#32 h hφ hacc (ix1 p)).trans ?_
  refine Finset.sum_congr rfl fun k _ => congrArg v (funext fun d => Fin.ext ?_)
  match d with
  | ⟨0, _⟩ => rfl
  | ⟨1, _⟩ => rfl

/-- The maximum over the lanes of row `p`, from minus infinity. -/
theorem lane_max {a b : ℕ} (v : FVec Ideal (⟨2, ![a, b]⟩ : Shape) .f32) (h : (⟨2, ![a, b]⟩ : Shape).Reduces [1] ⟨1, ![a]⟩)
    (hφ : FKind.Formats .f32) (hacc : (0xFF800000#32 : BitVec 32) = 0xFF800000#32) (p : Fin a) :
    multiReduction .maximumf [1] (⟨1, ![a]⟩ : Shape) v 0xFF800000#32 h hφ hacc (ix1 p)
      = (Finset.univ : Finset (Fin b)).fold max (Ideal.ofBits .f32 0xFF800000#32) (fun k => v (ix2 p k)) := by
  refine (Ideal.multiReduction_maximumf_single v 0xFF800000#32 h hφ hacc (ix1 p)).trans ?_
  refine congrArg (Finset.fold max _ · Finset.univ) (funext fun k => congrArg v (funext fun d => Fin.ext ?_))
  match d with
  | ⟨0, _⟩ => rfl
  | ⟨1, _⟩ => rfl

end Cert.Lib

end
-- ==== Proof.Step.lean ====
/-
  One grid step's arithmetic, read entry by entry over the extended reals.

  The step's tile of scores is a [1, 1, 512, 2048] block, its label row a [1, 2048] block, its weights a [512, 1] block.
  Entry `r` of the [512, 1] column the step computes is the value of position `r` of the tile, as the specification
  defines it (`Spec.position`): the row sums over the 2048 items are lane sums, the masks are selects on one comparison, and the step's "zero minus
  the sum" is the sum's negative. The running total's update adds the column's 512 entries to the old total; the output block is
  a copy of the total; the reset value is zero.
-/
import proofs.«107683_j64415919505714_1_alg».proof.Proof.Gen.KernelIdeal.Skeleton
import proofs.«107683_j64415919505714_1_alg».proof.Proof.Spec
import proofs.«107683_j64415919505714_1_alg».proof.Proof.LibLanes
import Idealize.ShloMosaic.Lib.Pipeline.Value
import Idealize.ShloMosaic.Lib.ValueLayout
import Idealize.ShloMosaic.PureOps.Ideal.Laws

noncomputable section

open scoped BigOperators

namespace Cert.KernelIdeal.Step

open Cert.KernelIdeal Cert.KernelIdeal.Gen Idealize.ShloMosaic Idealize.ShloMosaic.ValueIdx Cert.Spec

/-- The step's tile of scores, with its two leading unit axes dropped, reads the tile at `(0, 0, p, k)`. -/
theorem scores_apply (v3 : Vec Ideal S1x1x512x2048 .f32) (p : Fin 512) (k : Fin 2048) :
    shapeCast S512x2048 v3 shapeCasts_S1x1x512x2048_S512x2048 (ix2 p k) = v3 (ix4 (0 : Fin 1) (0 : Fin 1) p k) :=
  shapeCast_apply v3 _ _ _ (by
    rw [Shape.rowMajor_val_four, Shape.rowMajor_val_two]
    show ((0 * 1 + 0) * 512 + p.val) * 2048 + k.val = p.val * 2048 + k.val
    omega)

/-- The label row, spread over the 512 positions of the tile, reads the row at `k` whatever the position. -/
theorem labels_apply (v11 : Vec Ideal S1x2048 .f32) (p : Fin 512) (k : Fin 2048) :
    broadcastTo S512x2048 (shapeCast S1x2048 (shapeCast S2048 v11 shapeCasts_S1x2048_S2048)
      shapeCasts_S2048_S1x2048) broadcasts_S1x2048_S512x2048 (ix2 p k) = v11 (ix2 (0 : Fin 1) k) := by
  rw [broadcastTo_1b_ab_apply, shapeCast_a_1a_apply, shapeCast_1a_a_apply]

/-- A logarithm taken entry by entry reads, at an index, the logarithm of the entry. -/
theorem log_apply {s : Shape} (a : FVec Ideal s .f32) (i : s.Idx) : log a i = Ideal.log (a i) := rfl

/-- At the extended reals the comparison of two floats is the comparison of the linear order. -/
theorem cmpf_ideal (p : CmpFPredicate) (x y : EReal) : FloatOps.cmpf (F := Ideal) (φ := .f32) p x y = Ideal.cmp p x y := rfl

/-- THE STEP'S NUMBERS: entry `r` of what a step computes from its tile, its label row and its weights is the value of
    position `r` of the tile. (The step writes the numerator's sign change as a subtraction from zero.) -/
theorem pay4_apply (v3 : Vec Ideal S1x1x512x2048 .f32) (v11 : Vec Ideal S1x2048 .f32) (v32 : Vec Ideal S512x1 .f32) (r : Fin 512) :
    k0_pay4 (F := Ideal) v3 v11 v32 (ix2 r (0 : Fin 1))
      = position (fun i => v3 (ix4 (0 : Fin 1) (0 : Fin 1) r i)) (fun i => v11 (ix2 (0 : Fin 1) i)) (v32 (ix2 r (0 : Fin 1))) := by
  unfold k0_pay4
  dsimp only
  rw [mulf_apply, divf_apply, subf_apply, addf_apply, shapeCast_self]
  rw [Cert.Lib.shapeCast_a_a1_apply, Cert.Lib.shapeCast_a_a1_apply]
  rw [Cert.Lib.lane_sum, Cert.Lib.lane_sum]
  simp only [select_apply, mulf_apply, cmpf_apply, broadcast_apply, scores_apply, labels_apply, log_apply, shapeCast_self,
    cmpf_ideal, Ideal.ofBits_def]
  unfold position lossTerm massTerm masked
  simp only [Ideal.ofBits_zero_f32, zero_sub]
  have e1 : ∀ x : Fin 2048, shapeCast S512x2048 v3 shapeCasts_S1x1x512x2048_S512x2048 (ix2 r x) = v3 (ix4 (0 : Fin 1) (0 : Fin 1) r x) :=
    fun x => scores_apply v3 r x
  have e2 : ∀ x : Fin 2048, broadcastTo S512x2048 (shapeCast S1x2048 (shapeCast S2048 v11 shapeCasts_S1x2048_S2048)
      shapeCasts_S2048_S1x2048) broadcasts_S1x2048_S512x2048 (ix2 r x) = v11 (ix2 (0 : Fin 1) x) := fun x => labels_apply v11 r x
  simp only [e1, e2]

/-- THE RUNNING TOTAL'S UPDATE: the one entry of the new total is the old total plus the sum of the step's 512 numbers. -/
theorem pay1_apply (v35 : FVec Ideal S512x1 .f32) (v36 : Vec Ideal S1x1 .f32) :
    k0_pay1 (F := Ideal) v35 v36 (ix2 (0 : Fin 1) (0 : Fin 1)) = v36 (ix2 (0 : Fin 1) (0 : Fin 1)) + ∑ r : Fin 512, v35 (ix2 r (0 : Fin 1)) := by
  unfold k0_pay1
  dsimp only
  rw [shapeCast_self, addf_apply, Cert.Lib.shapeCast_a_a1_apply]
  refine congrArg (v36 (ix2 (0 : Fin 1) (0 : Fin 1)) + ·) ?_
  refine (Ideal.multiReduction_add_single v35 0x00000000#32 reduces_S512x1_S1 _ _ (ix1 (0 : Fin 1))).trans ?_
  refine Finset.sum_congr rfl fun k _ => congrArg v35 (funext fun d => Fin.ext ?_)
  match d with
  | ⟨0, _⟩ => rfl
  | ⟨1, _⟩ => rfl

/-- THE OUTPUT BLOCK is a copy of the running total. -/
theorem pay2_apply (v43 : Vec Ideal S1x1 .f32) :
    k0_pay2 (F := Ideal) v43 (ix3 (0 : Fin 1) (0 : Fin 1) (0 : Fin 1)) = v43 (ix2 (0 : Fin 1) (0 : Fin 1)) := by
  unfold k0_pay2
  rw [shapeCast_ab_1ab_apply]

/-- THE RESET VALUE of the running total is the zero word. -/
theorem pay3_apply : k0_pay3 (F := Ideal) (ix2 (0 : Fin 1) (0 : Fin 1)) = Ideal.ofBits .f32 0x00000000#32 := by
  unfold k0_pay3
  rw [shapeCast_self]
  rfl

end Cert.KernelIdeal.Step
end
-- ==== Proof.Blocks.lean ====
/-
  What each grid step reads, in terms of the three argument arrays.

  Step `t` of the 256 handles batch `t / 4` and the run of positions `512 (t % 4) … 512 (t % 4) + 511`. Its tile of
  scores is the block of the score array at block index `(t / 4, 0, t % 4, 0)`, so entry `(r, i)` of the tile is the score of
  batch `t / 4`, position `512 (t % 4) + r`, item `i`. The labels and the weight column come whole; the step reads row `t / 4`
  of the labels and the entries from `512 (t % 4)` on of the weight column, which is the weight vector reshaped to a column
  before the call.
-/
import proofs.«107683_j64415919505714_1_alg».proof.Proof.Gen.KernelIdeal.Frame
import proofs.«107683_j64415919505714_1_alg».proof.Proof.Found
import proofs.«107683_j64415919505714_1_alg».proof.Proof.Spec
import Idealize.ShloMosaic.Lib.Pipeline.Value
import proofs.«107683_j64415919505714_1_alg».proof.Proof.LibLanes
import Idealize.ShloMosaic.Lib.ValueLayout
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.KernelIdeal.Found Idealize.ShloMosaic.ValueIdx Cert.Spec

variable {F : FTy → Type} [FloatOps F]
variable (m : (ℓ : Loc nD τ sig) → Buf (Elt F) ℓ)

/-- Where step `t` of the 256 sits: batch `t / 4`, run `t % 4`. Its tile of scores is block `(t / 4, 0, t % 4, 0)`, the labels and the
    weights come whole, its output block is `(t / 4, 0, 0)`; inside the step the label row is read at row `t / 4` and the weights
    from entry `512 (t % 4)` on. Decided over the grid's 256 points. -/
theorem point_facts : ∀ t : Fin cfg0.N,
    win0_0.index t (0 : Fin 4) = t.val / 4 ∧ win0_0.index t (1 : Fin 4) = 0 ∧ win0_0.index t (2 : Fin 4) = t.val % 4 ∧ win0_0.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val / 4 ∧ win0_3.index t (1 : Fin 3) = 0 ∧ win0_3.index t (2 : Fin 3) = 0
    ∧ k0_off1 (grid0.coords t) (0 : Fin 2) = t.val / 4 ∧ k0_off1 (grid0.coords t) (1 : Fin 2) = 0
    ∧ k0_off2 (grid0.coords t) (0 : Fin 2) = 512 * (t.val % 4) ∧ k0_off2 (grid0.coords t) (1 : Fin 2) = 0 :=
  (by decide +kernel : ∀ t : Fin grid0.N, _)

/-- Entry `(r, i)` of step `t`'s tile is the score of batch `t / 4`, position `512 (t % 4) + r`, item `i`. -/
theorem scores_block (c : Dev nD) (t : Fin cfg0.N) (r : Fin 512) (i : Fin 2048) :
    (iblk m c 0 t : Vec F S1x1x512x2048 .f32) (ix4 (0 : Fin 1) (0 : Fin 1) r i)
      = m ((c : Thread nD τ).loc main_arg0) (ix4 (wrap (n := 64) (by decide) (t.val / 4)) (0 : Fin 1) (wrap (n := 2048) (by decide) (512 * (t.val % 4) + r.val)) i) := by
  have hN : t.val < 256 := lt_of_lt_of_eq t.isLt N_0
  obtain ⟨e0, e1, e2, e3, -⟩ := point_facts t
  unfold iblk
  rw [View.read_apply]
  show V m c main_arg0 (((cfg0.win 0).blk t).view.emb (ix4 (0 : Fin 1) (0 : Fin 1) r i)) = _
  rw [V_main_arg0]
  refine congrArg (m ((c : Thread nD τ).loc main_arg0)) (funext fun a => Fin.ext ?_)
  match a with
  | ⟨0, _⟩ => show win0_0.index t (0 : Fin 4) * 1 + 1 * 0 = (t.val / 4) % 64; rw [e0]; omega
  | ⟨1, _⟩ => show win0_0.index t (1 : Fin 4) * 1 + 1 * 0 = 0; rw [e1]
  | ⟨2, _⟩ => show win0_0.index t (2 : Fin 4) * 512 + 1 * r.val = (512 * (t.val % 4) + r.val) % 2048; rw [e2]; omega
  | ⟨3, _⟩ => show win0_0.index t (3 : Fin 4) * 2048 + 1 * i.val = i.val; rw [e3]; omega

/-- Entry `i` of the label row step `t` reads is the label of batch `t / 4`, item `i`. -/
theorem labels_block (c : Dev nD) (t : Fin cfg0.N) (i : Fin 2048) :
    labelRow (grid0.coords t) (iblk m c 1 t : Vec F S64x2048 .f32) (ix2 (0 : Fin 1) i)
      = m ((c : Thread nD τ).loc main_arg1) (ix2 (wrap (n := 64) (by decide) (t.val / 4)) i) := by
  have hN : t.val < 256 := lt_of_lt_of_eq t.isLt N_0
  obtain ⟨-, -, -, -, e4, e5, -, -, -, -, -, e11, e12, -⟩ := point_facts t
  unfold labelRow View.ld iblk
  rw [View.read_apply]
  show V m c main_arg1 (((cfg0.win 1).blk t).view.emb ((Rect.unit (s := S64x2048) (k0_off1 (grid0.coords t)) S1x2048.size (k0_off1_inb (grid0.coords t))).idx (ix2 (0 : Fin 1) i))) = _
  rw [V_main_arg1]
  refine congrArg (m ((c : Thread nD τ).loc main_arg1)) (funext fun a => Fin.ext ?_)
  match a with
  | ⟨0, _⟩ => show win0_1.index t (0 : Fin 2) * 64 + 1 * (k0_off1 (grid0.coords t) (0 : Fin 2) + 1 * 0) = (t.val / 4) % 64; rw [e4, e11]; omega
  | ⟨1, _⟩ => show win0_1.index t (1 : Fin 2) * 2048 + 1 * (k0_off1 (grid0.coords t) (1 : Fin 2) + 1 * i.val) = i.val; rw [e5, e12]; omega

/-- The weight column the step finds is the weight vector laid out as a column (the reshape before the call). -/
theorem weights_found (c : Dev nD) :
    (V m c main_v0 : S2048x1.Idx → Elt F .f32) = shapeCast S2048x1 (m ((c : Thread nD τ).loc main_arg2)) shapeCasts_S2048_S2048x1 := by
  show StableHlo.after hostOps0 (fun b => m (c, b)) (Proc.devRef .tc main_v0) = _
  after_results
  rfl

/-- Entry `r` of the weights step `t` reads is the weight of position `512 (t % 4) + r`. -/
theorem weights_block (c : Dev nD) (t : Fin cfg0.N) (r : Fin 512) :
    weightRun (grid0.coords t) (iblk m c 2 t : Vec F S2048x1 .f32) (ix2 r (0 : Fin 1))
      = m ((c : Thread nD τ).loc main_arg2) (ix1 (wrap (n := 2048) (by decide) (512 * (t.val % 4) + r.val))) := by
  have hN : t.val < 256 := lt_of_lt_of_eq t.isLt N_0
  obtain ⟨-, -, -, -, -, -, e6, e7, -, -, -, -, -, e13, e14⟩ := point_facts t
  unfold weightRun View.ld iblk
  rw [View.read_apply]
  show V m c main_v0 (((cfg0.win 2).blk t).view.emb ((Rect.unit (s := S2048x1) (k0_off2 (grid0.coords t)) S512x1.size (k0_off2_inb (grid0.coords t))).idx (ix2 r (0 : Fin 1)))) = _
  rw [weights_found]
  refine (shapeCast_apply _ shapeCasts_S2048_S2048x1 _ (ix1 (wrap (n := 2048) (by decide) (512 * (t.val % 4) + r.val))) ?_)
  rw [Shape.rowMajor_val_one, Shape.rowMajor_val_two]
  show (512 * (t.val % 4) + r.val) % 2048 = (win0_2.index t (0 : Fin 2) * 2048 + 1 * (k0_off2 (grid0.coords t) (0 : Fin 2) + 1 * r.val)) * 1 + (win0_2.index t (1 : Fin 2) * 1 + 1 * (k0_off2 (grid0.coords t) (1 : Fin 2) + 1 * 0))
  rw [e6, e7, e13, e14]; omega

end Cert.KernelIdeal.Blocks
end
-- ==== Proof.Totals.lean ====
/-
  The running total over the grid, and the output array when the call is over.

  The 256 steps come batch by batch, four steps to a batch. The first step of a batch resets the running total to zero and adds its
  column's sum; each later step adds its column's sum to what the step before left. So after step `t` the total is zero plus the
  sums of the runs `0 … t % 4` of batch `t / 4` (a fold over the batch's steps, opened by the library's lemma on
  accumulations that reset at the multiples of four), and the output block is a copy of it. The output block is written back to the
  output array after the last step of each batch, to the batch's entry; every entry of the array is written by exactly that step, so the
  array ends holding, for each batch, zero plus the sums of its four runs.
-/
import proofs.«107683_j64415919505714_1_alg».proof.Proof.Gen.KernelIdeal.Frame
import proofs.«107683_j64415919505714_1_alg».proof.Proof.Found
import proofs.«107683_j64415919505714_1_alg».proof.Proof.Step
import proofs.«107683_j64415919505714_1_alg».proof.Proof.Blocks
import proofs.«107683_j64415919505714_1_alg».proof.Proof.Spec
import Idealize.ShloMosaic.Lib.Pipeline.Value
import Idealize.ShloMosaic.Lib.Tactic

set_option maxRecDepth 16384

noncomputable section

open scoped BigOperators
open Idealize.ShloMosaic Idealize.ShloMosaic.TcCoe Idealize.SL.Sem
open Idealize.ShloMosaic.Pipeline (Dat)

namespace Cert.KernelIdeal.Totals

open Cert.KernelIdeal Cert.KernelIdeal.Gen Cert.KernelIdeal.Found Cert.KernelIdeal.Step Cert.KernelIdeal.Blocks
open Idealize.ShloMosaic.ValueIdx Cert.Spec

variable (m : (ℓ : Loc nD τ sig) → Buf (Elt Ideal) ℓ)

/-- The scores, the labels and the weights by coordinates. -/
abbrev scores (c : Dev nD) : Fin 64 → Fin 2048 → Fin 2048 → EReal :=
  fun b j i => m ((c : Thread nD τ).loc main_arg0) (ix4 b (0 : Fin 1) j i)
abbrev labels (c : Dev nD) : Fin 64 → Fin 2048 → EReal := fun b i => m ((c : Thread nD τ).loc main_arg1) (ix2 b i)
abbrev weights (c : Dev nD) : Fin 2048 → EReal := fun j => m ((c : Thread nD τ).loc main_arg2) (ix1 j)

/-- The column of 512 numbers step `t` computes from what it reads. -/
abbrev column (c : Dev nD) (t : Fin cfg0.N) : FVec Ideal S512x1 .f32 :=
  k0_pay4 (iblk m c 0 t : Vec Ideal S1x1x512x2048 .f32) (labelRow (grid0.coords t) (iblk m c 1 t : Vec Ideal S64x2048 .f32))
    (weightRun (grid0.coords t) (iblk m c 2 t : Vec Ideal S2048x1 .f32))

/-- Its entries sum to the specification's sum for that step's run of positions. -/
theorem column_sum (c : Dev nD) (t : Fin cfg0.N) :
    ∑ r : Fin 512, column m c t (ix2 r (0 : Fin 1)) = runSum (scores m c) (labels m c) (weights m c) t.val := by
  unfold runSum
  refine Finset.sum_congr rfl fun r _ => ?_
  refine (pay4_apply (iblk m c 0 t : Vec Ideal S1x1x512x2048 .f32) (labelRow (grid0.coords t) (iblk m c 1 t : Vec Ideal S64x2048 .f32))
    (weightRun (grid0.coords t) (iblk m c 2 t : Vec Ideal S2048x1 .f32)) r).trans ?_
  exact congr (congr (congrArg position (funext fun i => scores_block m c t r i)) (funext fun i => labels_block m c t i))
    (weights_block m c t r)

/-- Every index of a one-entry matrix is `(0, 0)`. -/
theorem only11 (i : S1x1.Idx) : i = ix2 (0 : Fin 1) (0 : Fin 1) := by
  funext a
  match a with
  | ⟨0, _⟩ => exact Fin.ext (by have h : (i 0).val < 1 := (i 0).isLt; show (i 0).val = 0; omega)
  | ⟨1, _⟩ => exact Fin.ext (by have h : (i 1).val < 1 := (i 1).isLt; show (i 1).val = 0; omega)

/-- The running total after step `n`. -/
abbrev totalAt (c : Dev nD) (n : ℕ) (h : n < cfg0.N) : Vec Ideal S1x1 .f32 := (outsAt0 m c n h).2

/-- At the first step of a batch it is the column's sum added to the reset value. -/
theorem total_reset (c : Dev nD) (n : ℕ) (h : n < cfg0.N) (h0 : n % 4 = 0) :
    totalAt m c n h = k0_pay1 (column m c ⟨n, h⟩) (k0_pay3 (F := Ideal)) :=
  (congrArg Prod.snd (outsAt0_A m c ⟨n, h⟩ h0)).trans
    (total_first (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩)
      (ms0_3 ⟨n, h⟩) (hs0_3 ⟨n, h⟩) scM0_0 (Memref.isWhole_whole _) ((hcond0_0 ⟨n, h⟩).mpr h0) (iblk m c 0 ⟨n, h⟩) (iblk m c 1 ⟨n, h⟩) (iblk m c 2 ⟨n, h⟩))

/-- At a later step it is the column's sum added to what the step before left. -/
theorem total_step (c : Dev nD) (n : ℕ) (h : n + 1 < cfg0.N) (h0 : ¬(n + 1) % 4 = 0) :
    totalAt m c (n + 1) h = k0_pay1 (column m c ⟨n + 1, h⟩) (totalAt m c n (Nat.lt_of_succ_lt h)) :=
  (congrArg Prod.snd (outsAt0_B m c ⟨n + 1, h⟩ h0)).trans
    (total_later (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
      (ms0_3 ⟨n + 1, h⟩) (hs0_3 ⟨n + 1, h⟩) scM0_0 (Memref.isWhole_whole _) (fun hc => h0 ((hcond0_0 ⟨n + 1, h⟩).mp hc)) (iblk m c 0 ⟨n + 1, h⟩) (iblk m c 1 ⟨n + 1, h⟩) (iblk m c 2 ⟨n + 1, h⟩)
      (totalAt m c n (Nat.lt_of_succ_lt h)))

/-- Every index of a one-entry array of rank 3 is `(0, 0, 0)`. -/
theorem only111 (i : S1x1x1.Idx) : i = ix3 (0 : Fin 1) (0 : Fin 1) (0 : Fin 1) := by
  funext a
  match a with
  | ⟨0, _⟩ => exact Fin.ext (by have h : (i 0).val < 1 := (i 0).isLt; show (i 0).val = 0; omega)
  | ⟨1, _⟩ => exact Fin.ext (by have h : (i 1).val < 1 := (i 1).isLt; show (i 1).val = 0; omega)
  | ⟨2, _⟩ => exact Fin.ext (by have h : (i 2).val < 1 := (i 2).isLt; show (i 2).val = 0; omega)

/-- THE RUNNING TOTAL AFTER STEP `t`: zero plus the sums of the runs `0 … t % 4` of batch `t / 4`. -/
theorem total_eq (c : Dev nD) (t : Fin cfg0.N) :
    totalAt m c t.val t.isLt (ix2 (0 : Fin 1) (0 : Fin 1))
      = Ideal.ofBits .f32 0x00000000#32
        + ∑ s ∈ Finset.range (t.val % 4 + 1), runSum (scores m c) (labels m c) (weights m c) (4 * (t.val / 4) + s) := by
  have hN : cfg0.N = 256 := N_0
  have ht : t.val < 256 := lt_of_lt_of_eq t.isLt hN
  have h' : 4 * (t.val / 4) + t.val % 4 < cfg0.N := by have := t.isLt; omega
  have hfold := Pipeline.eq_accAt_of_mod (N := cfg0.N) (fun n h => totalAt m c n h) 4
    (fun n h => k0_pay1 (column m c ⟨n, h⟩) (k0_pay3 (F := Ideal)))
    (fun n h acc => k0_pay1 (column m c ⟨n, h⟩) acc)
    (fun n h h0 => total_reset m c n h h0) (fun n h h0 => total_step m c n h h0) (by decide) t.val t.isLt h'
  rw [hfold]
  refine Pipeline.accAt_add_apply (N := cfg0.N) (ι := S1x1.Idx) (β := EReal) _ _ (fun _ => Ideal.ofBits .f32 0x00000000#32)
    (fun n _ => runSum (scores m c) (labels m c) (weights m c) n) (4 * (t.val / 4)) 3 ?_ ?_ (t.val % 4) (by omega) h' _
  · intro h i
    rw [only11 i, pay1_apply, pay3_apply, column_sum]
  · intro n h acc i _ _
    rw [only11 i, pay1_apply, column_sum]

/-- THE OUTPUT BLOCK after a step is a copy of the running total after it. -/
theorem block_eq (c : Dev nD) (t : Fin cfg0.N) :
    (outsAt0 m c t.val t.isLt).1 = k0_pay2 (totalAt m c t.val t.isLt) := by
  by_cases h0 : t.val % 4 = 0
  · unfold totalAt
    rw [outsAt0_A m c t h0]
    exact (block_first (F := Ideal) c (grid0.coords t) (ms0_0 t) (hs0_0 t) (ms0_1 t) (hs0_1 t) (ms0_2 t) (hs0_2 t)
      (ms0_3 t) (hs0_3 t) scM0_0 (Memref.isWhole_whole _) ((hcond0_0 t).mpr h0) (iblk m c 0 t) (iblk m c 1 t) (iblk m c 2 t)).trans
      (congrArg k0_pay2 (total_first (F := Ideal) c (grid0.coords t) (ms0_0 t) (hs0_0 t) (ms0_1 t) (hs0_1 t) (ms0_2 t) (hs0_2 t)
      (ms0_3 t) (hs0_3 t) scM0_0 (Memref.isWhole_whole _) ((hcond0_0 t).mpr h0) (iblk m c 0 t) (iblk m c 1 t) (iblk m c 2 t)).symm)
  · unfold totalAt
    rw [outsAt0_B m c t h0]
    exact (block_later (F := Ideal) c (grid0.coords t) (ms0_0 t) (hs0_0 t) (ms0_1 t) (hs0_1 t) (ms0_2 t) (hs0_2 t)
      (ms0_3 t) (hs0_3 t) scM0_0 (Memref.isWhole_whole _) (fun hc => h0 ((hcond0_0 t).mp hc)) (iblk m c 0 t) (iblk m c 1 t) (iblk m c 2 t) _).trans
      (congrArg k0_pay2 (total_later (F := Ideal) c (grid0.coords t) (ms0_0 t) (hs0_0 t) (ms0_1 t) (hs0_1 t) (ms0_2 t) (hs0_2 t)
      (ms0_3 t) (hs0_3 t) scM0_0 (Memref.isWhole_whole _) (fun hc => h0 ((hcond0_0 t).mp hc)) (iblk m c 0 t) (iblk m c 1 t) (iblk m c 2 t) _).symm)

/-- What the output array holds when the call is over: for each batch, zero plus the sums of its four runs. -/
def batchTotals (c : Dev nD) : S64x1x1.Idx → Elt Ideal .f32 := fun i =>
  Ideal.ofBits .f32 0x00000000#32 + ∑ s ∈ Finset.range 4, runSum (scores m c) (labels m c) (weights m c) (4 * (i 0).val + s)

/-- The last step of a batch writes that batch's entry back. -/
theorem flushed_eq (c : Dev nD) (t : Fin cfg0.N) (hf : (cfg0.win 3).flush t = true) :
    (dats m 0 c).flushed 3 t = ((cfg0.win 3).blk t).view.read (Elt Ideal) (batchTotals m c) := by
  have h3 : t.val % 4 = 3 := (flush0_3 t).mp hf
  show (cfg0.win 3).cut (grid0.coords t) ((dats m 0 c).after 3 t) = _
  rw [after0_3, block_eq]
  funext j
  show k0_pay2 (totalAt m c t.val t.isLt) ((cfg0.win 3).xinj (grid0.coords t) j) = _
  rw [View.read_apply]
  show _ = batchTotals m c (((cfg0.win 3).blk t).view.emb j)
  refine (congrArg (k0_pay2 (totalAt m c t.val t.isLt)) (only111 _)).trans ?_
  rw [pay2_apply, total_eq, h3]
  unfold batchTotals
  have e : ((((cfg0.win 3).blk t).view.emb j) 0).val = t.val / 4 := by
    obtain ⟨-, -, -, -, -, -, -, -, e8, -⟩ := point_facts t
    have hj : (j 0).val < 1 := (j 0).isLt
    show win0_3.index t (0 : Fin 3) * 1 + 1 * (j 0).val = t.val / 4
    rw [e8]; omega
  rw [e]

/-- An index of the output array lies in step `t`'s block iff each coordinate lies in the block's range. -/
theorem mem_blk (t : Fin cfg0.N) (i : S64x1x1.Idx) :
    i ∈ ((cfg0.win 3).blk t).view.set ↔ ∀ a : Fin 3, win0_3.index t a * S1x1x1.size a ≤ (i a).val ∧ (i a).val < win0_3.index t a * S1x1x1.size a + S1x1x1.size a := by
  show i ∈ ((View.whole main_v1).slice (win0_3.rect t)).set ↔ _
  rw [View.set_slice_whole, Rect.mem_set_unit]
  exact Iff.rfl

/-- Batch `b`'s entry lies in the block of the batch's last step, `4 b + 3`, which writes back. -/
theorem covered (i : S64x1x1.Idx) : ∃ t : Fin cfg0.N, (cfg0.win 3).flush t = true ∧ i ∈ ((cfg0.win 3).blk t).view.set := by
  have hN : cfg0.N = 256 := N_0
  have hi : (i 0).val < 64 := (i 0).isLt
  have h1 : (i 1).val < 1 := (i 1).isLt
  have h2 : (i 2).val < 1 := (i 2).isLt
  have hlt : 4 * (i 0).val + 3 < cfg0.N := by rw [hN]; omega
  generalize ht : (⟨4 * (i 0).val + 3, hlt⟩ : Fin cfg0.N) = t
  have hv : t.val = 4 * (i 0).val + 3 := by rw [← ht]
  refine ⟨t, (flush0_3 t).mpr (by rw [hv]; omega), ?_⟩
  obtain ⟨-, -, -, -, -, -, -, -, e8, e9, e10, -⟩ := point_facts t
  rw [mem_blk]
  intro a
  match a with
  | ⟨0, _⟩ => show win0_3.index t (0 : Fin 3) * 1 ≤ (i 0).val ∧ (i 0).val < win0_3.index t (0 : Fin 3) * 1 + 1; rw [e8, hv]; omega
  | ⟨1, _⟩ => show win0_3.index t (1 : Fin 3) * 1 ≤ (i 1).val ∧ (i 1).val < win0_3.index t (1 : Fin 3) * 1 + 1; rw [e9]; omega
  | ⟨2, _⟩ => show win0_3.index t (2 : Fin 3) * 1 ≤ (i 2).val ∧ (i 2).val < win0_3.index t (2 : Fin 3) * 1 + 1; rw [e10]; omega

/-- THE OUTPUT ARRAY when the call is over holds the batches' totals. -/
theorem final (c : Dev nD) : (dats m 0 c).arrAt 3 cfg0.N = batchTotals m c :=
  (dats m 0 c).arrAt_eq_of_cover 3 (batchTotals m c) (flushed_eq m c) covered

end Cert.KernelIdeal.Totals
end
-- ==== Proof.Result.lean ====
/-
  The kernel's program computes the specification's loss.

  After the call the program sums the 64 entries of the output array from zero and divides by 64. The output array holds, for
  each batch, zero plus the sums of the batch's four runs of positions; by the specification's regrouping lemma that is the batch's sum over all its
  positions, and the mean of the batches' sums is the loss.
-/
import proofs.«107683_j64415919505714_1_alg».proof.Proof.Gen.KernelIdeal.Frame
import proofs.«107683_j64415919505714_1_alg».proof.Proof.Totals
import proofs.«107683_j64415919505714_1_alg».proof.Proof.Spec
import Idealize.ShloMosaic.Lib.Pipeline.Value
import Idealize.ShloMosaic.Lib.ValueIdx
import Idealize.ShloMosaic.Lib.StableHlo.Run
import Idealize.ShloMosaic.Lib.Tactic
import Idealize.ShloMosaic.PureOps.Ideal.Laws

set_option maxRecDepth 16384

noncomputable section

open scoped BigOperators
open Idealize.ShloMosaic Idealize.ShloMosaic.TcCoe Idealize.SL.Sem
open Idealize.ShloMosaic.Pipeline (Dat)

namespace Cert.KernelIdeal.Result

open Cert.KernelIdeal Cert.KernelIdeal.Gen Cert.KernelIdeal.Totals Idealize.ShloMosaic.ValueIdx Cert.Spec

variable (m : (ℓ : Loc nD τ sig) → Buf (Elt Ideal) ℓ) (ρ : Dev nD → PrngReg)

/-- What the program returns, read off the operations after the call: the output array summed from zero, divided by 64. -/
theorem result_read (c : Dev nD) :
    Pipeline.afterTail₀ cfgs (dats m) 0 (V0 m) [hostOps1] c main_v3
      = Host.divf (F := Ideal) (Host.reduceAdd (F := Ideal) ((dats m 0 c).arrAt 3 cfg0.N) (constant (F := Ideal) S_ .f32 0x00000000#32) reducesTo_S64x1x1_S_d0_1_2 h_S_)
          (constant (F := Ideal) S_ .f32 0x42800000#32) := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v1)
      = (dats m 0 c).arrAt 3 cfg0.N := Pipeline.withArrays_arr spec0 launch0.win.arr_inj c _ _ 3
  rw [e]

/-- A sum over the indices of the [64, 1, 1] output array is the sum over the batches. -/
theorem sum_batches {M : Type*} [AddCommMonoid M] (f : S64x1x1.Idx → M) :
    ∑ i, f i = ∑ b : Fin 64, f (ix3 b (0 : Fin 1) (0 : Fin 1)) :=
  Fintype.sum_equiv ⟨fun i => i 0, fun b => ix3 b (0 : Fin 1) (0 : Fin 1), fun i => by
      funext a
      match a with
      | ⟨0, _⟩ => rfl
      | ⟨1, _⟩ => exact Fin.ext (by have h : (i 1).val < 1 := (i 1).isLt; show 0 = (i 1).val; omega)
      | ⟨2, _⟩ => exact Fin.ext (by have h : (i 2).val < 1 := (i 2).isLt; show 0 = (i 2).val; omega), fun _ => rfl⟩ _ _
    (fun i => congrArg f (by
      funext a
      match a with
      | ⟨0, _⟩ => rfl
      | ⟨1, _⟩ => exact Fin.ext (by have h : (i 1).val < 1 := (i 1).isLt; show (i 1).val = 0; omega)
      | ⟨2, _⟩ => exact Fin.ext (by have h : (i 2).val < 1 := (i 2).isLt; show (i 2).val = 0; omega)))

/-- THE PROGRAM'S RESULT is the loss of the three argument arrays. -/
theorem value (c : Dev nD) (i : S_.Idx) :
    Pipeline.afterTail₀ cfgs (dats m) 0 (V0 m) [hostOps1] c main_v3 i = loss (scores m c) (labels m c) (weights m c) := by
  rw [result_read, final]
  show FloatOps.hostDivf (Host.reduceAdd (F := Ideal) (batchTotals m c) (constant (F := Ideal) S_ .f32 0x00000000#32) reducesTo_S64x1x1_S_d0_1_2 h_S_ i)
    (constant (F := Ideal) S_ .f32 0x42800000#32 i) = _
  simp only [Host.reduceAdd, Ideal.hostReduceAdd_def]
  rw [Ideal.hostReduceAdd_total reducesTo_S64x1x1_S_d0_1_2 (fun b => b.elim0) _ _ i, sum_batches, loss_by_runs]
  rfl

/-- The run of the kernel's program, read: the result at the loss, the arguments unchanged. -/
theorem run : θ_run defs (onTc (τ := τ) (main (F := Ideal))) ⟨m, fun _ => 0, ρ⟩ fun r => ∀ c : Dev nD,
      r.2.mem ((c.tc : Thread nD τ).loc main_v3) = (fun _ => loss (scores m c) (labels m c) (weights m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v3 (Pipeline.mem_restRefs_of main_v3 (by decide) (by decide))).trans (funext fun i => value m c i),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c))),
       ((h c).2 main_arg2 (Pipeline.mem_restRefs_of main_arg2 (by decide) (by decide))).trans (W_main_arg2 m (dats m) c)⟩)
    (run_main m ρ)

end Cert.KernelIdeal.Result
end
-- ==== Proof.RefIs.lean ====
/-
  The reference computes the specification's loss.

  Read one operation at a time, the reference forms for every batch `b`, position `j` and item `k` the masked terms of the
  numerator and of the denominator, sums them over `k` from zero, negates the numerator's sum, divides by the denominator's sum plus the
  smoothing constant, multiplies by the position's weight, sums over `j` from zero, sums the 64 batches from zero and divides by 64.
  The sums' initial zeros are neutral; what is left is `Spec.loss` of the three arrays.
-/
import proofs.«107683_j64415919505714_1_alg».proof.Proof.Gen.ReferenceIdeal.Read
import proofs.«107683_j64415919505714_1_alg».proof.Proof.Spec
import Idealize.ShloMosaic.Lib.ValueIdx
import Idealize.ShloMosaic.PureOps.Ideal.Laws

noncomputable section

open scoped BigOperators

namespace Cert.ReferenceIdeal.IsLoss

open Cert.ReferenceIdeal Cert.ReferenceIdeal.Read Idealize.ShloMosaic Idealize.ShloMosaic.ValueIdx Cert.Spec

/-- A sum over the indices of a vector is the sum over its one coordinate. -/
theorem sum_idx1 {M : Type*} [AddCommMonoid M] {n : ℕ} (f : (⟨1, ![n]⟩ : Shape).Idx → M) :
    ∑ i, f i = ∑ a : Fin n, f (ix1 a) :=
  Fintype.sum_equiv ⟨fun i => i 0, fun a => ix1 a, fun i => (eq_ix1 i).symm, fun _ => rfl⟩ _ _
    (fun i => congrArg f (eq_ix1 i))

/-- At the extended reals the comparison of two floats is the comparison of the linear order. -/
theorem cmpf_ideal (p : CmpFPredicate) (x y : EReal) : FloatOps.cmpf (F := Ideal) (φ := .f32) p x y = Ideal.cmp p x y := rfl

variable (x0 : (⟨S64x1x2048x2048, .f32⟩ : BufTy).Contents (Elt Ideal)) (x1 : (⟨S64x2048, .f32⟩ : BufTy).Contents (Elt Ideal))
  (x2 : (⟨S2048, .f32⟩ : BufTy).Contents (Elt Ideal))

/-- The score the reference's reshaped array holds at `(b, j, k)`. -/
theorem score_idx (b : Fin 64) (j k : Fin 2048) : idx_main_v0 (ix3 b j k) = ix4 b (0 : Fin 1) j k := by
  funext a
  have hb := b.isLt; have hj := j.isLt; have hk := k.isLt
  match a with
  | ⟨0, _⟩ => exact Fin.ext (by show ((b.val * 2048 + j.val) * 2048 + k.val) / 4194304 = b.val; omega)
  | ⟨1, _⟩ => rfl
  | ⟨2, _⟩ => exact Fin.ext (by show ((b.val * 2048 + j.val) * 2048 + k.val) / 2048 % 2048 = j.val; omega)
  | ⟨3, _⟩ => exact Fin.ext (by show ((b.val * 2048 + j.val) * 2048 + k.val) % 2048 = k.val; omega)

/-- THE REFERENCE'S VALUE AT A POSITION is the specification's. -/
theorem position_eq (b : Fin 64) (j : Fin 2048) :
    val_main_v19 (F := Ideal) x0 x1 x2 (ix2 b j)
      = position (fun k => x0 (ix4 b (0 : Fin 1) j k)) (fun k => x1 (ix2 b k)) (x2 (ix1 j)) := by
  have i9 : ∀ k : Fin 2048, idx_main_v9 (ix2 b j) k = ix3 b j k := fun k =>
    funext fun a => by match a with | ⟨0, _⟩ => rfl | ⟨1, _⟩ => rfl | ⟨2, _⟩ => rfl
  have i13 : ∀ k : Fin 2048, idx_main_v13 (ix2 b j) k = ix3 b j k := fun k =>
    funext fun a => by match a with | ⟨0, _⟩ => rfl | ⟨1, _⟩ => rfl | ⟨2, _⟩ => rfl
  have i6 : ∀ k : Fin 2048, idx_main_v5 (idx_main_v6 (ix3 b j k)) = ix2 b k := fun k =>
    funext fun a => by match a with | ⟨0, _⟩ => rfl | ⟨1, _⟩ => rfl
  have i11 : ∀ k : Fin 2048, idx_main_v5 (idx_main_v11 (ix3 b j k)) = ix2 b k := fun k =>
    funext fun a => by match a with | ⟨0, _⟩ => rfl | ⟨1, _⟩ => rfl
  have i18 : idx_main_v17 (idx_main_v18 (ix2 b j)) = ix1 j :=
    funext fun a => by match a with | ⟨0, _⟩ => rfl
  rw [val_main_v19_apply, val_main_v16_apply, val_main_v10_apply, val_main_v9_apply, val_main_v15_apply, val_main_v13_apply,
    val_main_v14_apply, val_main_v18_apply, val_main_v17_apply, i18]
  simp only [i9, i13, val_main_v8_apply, val_main_v12_apply, val_main_v2_apply, val_main_v0_apply, val_main_v1_apply,
    val_main_call1_v1_apply, val_main_call1_v0_apply, val_main_call2_v1_apply, val_main_call2_v0_apply, val_main_v7_apply,
    val_main_v4_apply, val_main_v3_apply, val_main_call0_v1_apply, val_main_call0_v0_apply, val_main_v6_apply, val_main_v5_apply,
    val_main_v11_apply, val_main_cst_apply, val_main_cst_0_apply, val_main_cst_1_apply, val_main_cst_2_apply, val_main_cst_3_apply,
    val_main_cst_4_apply, val_main_cst_5_apply, score_idx, i6, i11]
  unfold position lossTerm massTerm masked
  simp only [Ideal.hostNegf_def, Ideal.negf_def, Ideal.hostDivf_def, Ideal.mulf_def, Ideal.addf_def, Ideal.ofBits_def,
    Ideal.hostUnary_log_def, cmpf_ideal, Ideal.ofBits_zero_f32, zero_add]

/-- THE REFERENCE'S RESULT is the loss. -/
theorem result_eq (i : S_.Idx) :
    val_main_v22 (F := Ideal) x0 x1 x2 i
      = loss (fun b j k => x0 (ix4 b (0 : Fin 1) j k)) (fun b k => x1 (ix2 b k)) (fun j => x2 (ix1 j)) := by
  rw [val_main_v22_apply, val_main_v21_apply, sum_idx1]
  have e : ∀ b : Fin 64, val_main_v20 (F := Ideal) x0 x1 x2 (ix1 b)
      = ∑ j : Fin 2048, position (fun k => x0 (ix4 b (0 : Fin 1) j k)) (fun k => x1 (ix2 b k)) (x2 (ix1 j)) := fun b => by
    rw [val_main_v20_apply, val_main_cst_6_apply]
    have i20 : ∀ k : Fin 2048, idx_main_v20 (ix1 b) k = ix2 b k := fun k =>
      funext fun a => by match a with | ⟨0, _⟩ => rfl | ⟨1, _⟩ => rfl
    simp only [i20, position_eq, Ideal.ofBits_def, Ideal.ofBits_zero_f32, zero_add]
  simp only [e, val_main_cst_7_apply, val_main_cst_8_apply, Ideal.ofBits_def, Ideal.ofBits_zero_f32, zero_add, Ideal.hostDivf_def]
  rfl

end Cert.ReferenceIdeal.IsLoss
end
-- ==== Proof.lean ====
/-
  The kernel and its reference compute the same loss.

  The loss: for each batch and position, the masked sum over the items of `log score · label`, negated, divided by the masked sum of the
  labels plus 1/e (as a float), times the position's weight; summed over the positions and averaged over the 64 batches.

  The reference computes it in one pass over whole arrays. The kernel walks a grid of 64 × 4 steps: step `(b, j)` takes the 512 positions
  `512 j … 512 j + 511` of batch `b`, computes their values, and adds their sum to a running total that it resets at `j = 0`; the total is
  written to the batch's output entry, and after the call the 64 entries are averaged. Over the extended reals the two agree because a sum over
  2048 positions is the sum of its four runs of 512 added in turn to zero: addition there is associative and commutative with zero neutral,
  whatever the inputs, so the precondition is not opened. The step's "zero minus the sum" is the reference's negation.

  Modules: Spec (the loss and its regrouping), Found / Step / Blocks (what a step leaves, computes and reads), Totals (the running
  total over the grid and the output array), Result (the kernel program's result), RefIs (the reference's result).
  The three frames are the generated ones (the reference's from its generated run); the idealization rewrote nothing.
-/
import proofs.«107683_j64415919505714_1_alg».proof.Defs
import proofs.«107683_j64415919505714_1_alg».proof.Proof.Gen.Kernel
import proofs.«107683_j64415919505714_1_alg».proof.Proof.Gen.Kernel.Skeleton
import proofs.«107683_j64415919505714_1_alg».proof.Proof.Gen.Kernel.Launch
import proofs.«107683_j64415919505714_1_alg».proof.Proof.Gen.Kernel.Points
import proofs.«107683_j64415919505714_1_alg».proof.Proof.Gen.Kernel.Frame
import proofs.«107683_j64415919505714_1_alg».proof.Proof.Gen.KernelIdeal
import proofs.«107683_j64415919505714_1_alg».proof.Proof.Gen.KernelIdeal.Skeleton
import proofs.«107683_j64415919505714_1_alg».proof.Proof.Gen.KernelIdeal.Launch
import proofs.«107683_j64415919505714_1_alg».proof.Proof.Gen.KernelIdeal.Points
import proofs.«107683_j64415919505714_1_alg».proof.Proof.Gen.KernelIdeal.Frame
import proofs.«107683_j64415919505714_1_alg».proof.Proof.Gen.ReferenceIdeal
import proofs.«107683_j64415919505714_1_alg».proof.Proof.Gen.ReferenceIdeal.Run
import proofs.«107683_j64415919505714_1_alg».proof.Proof.Gen.ReferenceIdeal.Read
import proofs.«107683_j64415919505714_1_alg».proof.Proof.Gen.Pre_finite_inputs
import proofs.«107683_j64415919505714_1_alg».proof.Proof.Result
import proofs.«107683_j64415919505714_1_alg».proof.Proof.RefIs
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the loss of the arguments as their result: the kernel's by `Result.run`, the reference's by its run
    and `IsLoss.result_eq`, of arguments that agree. -/
theorem algebraic : Cert.algebraic_KernelIdeal_ReferenceIdeal := by
  intro m ρ m' ρ' _ hagree
  refine ⟨fun c => (fun _ => Cert.Spec.loss (Cert.KernelIdeal.Totals.scores m c) (Cert.KernelIdeal.Totals.labels m c)
    (Cert.KernelIdeal.Totals.weights m c)), Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, (hagree c).1, (hagree c).2.1, (hagree c).2.2]
  funext i
  exact Cert.ReferenceIdeal.IsLoss.result_eq _ _ _ i

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
